-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x25x3 : Shape := ⟨4, ![512, 1024, 25, 3]⟩
abbrev S_ : Shape := ⟨0, ![]⟩

class Facts : Prop where
  bcast_S_S512x1024x25x3 : S_.BroadcastsInDim S512x1024x25x3 (![] : Fin 0 → Fin S512x1024x25x3.rank)
  reducesTo_S512x1024x25x3_S_d0_1_2_3 : S512x1024x25x3.ReducesTo [0, 1, 2, 3] S_
  h_S_ : 0 < S_.numel

variable [Facts]

def fn {F : FTy → Type} [FloatOps F] (main_arg0 : FVec F S512x1024x25x3 .f32) : IVec S_ 1 :=
  let main_v0 : FVec F S512x1024x25x3 .f32 := Host.absf main_arg0
  let main_cst : FVec F S_ .f32 := constant S_ .f32 0x7F800000#32
  let main_v1 : FVec F S512x1024x25x3 .f32 := broadcastInDim S512x1024x25x3 ![] bcast_S_S512x1024x25x3 main_cst
  let main_v2 : IVec S512x1024x25x3 1 := cmpf .olt main_v0 main_v1
  let main_c : IVec S_ 1 := constantI S_ 1 1#1
  let main_v3 : IVec S_ 1 := (fun x v => Host.reduce IntOp.andi x v reducesTo_S512x1024x25x3_S_d0_1_2_3 h_S_) main_v2 main_c
  main_v3
-- ==== Kernel.lean ====
abbrev S512x1024x25x3 : Shape := ⟨4, ![512, 1024, 25, 3]⟩
abbrev S512x1024x75 : Shape := ⟨3, ![512, 1024, 75]⟩
abbrev S75 : Shape := ⟨1, ![75]⟩
abbrev S75x1 : Shape := ⟨2, ![75, 1]⟩
abbrev S_ : Shape := ⟨0, ![]⟩
abbrev S25 : Shape := ⟨1, ![25]⟩
abbrev S1x25 : Shape := ⟨2, ![1, 25]⟩
abbrev S75x25 : Shape := ⟨2, ![75, 25]⟩
abbrev S25x75 : Shape := ⟨2, ![25, 75]⟩
abbrev S8x1024x75 : Shape := ⟨3, ![8, 1024, 75]⟩
abbrev S8192x75 : Shape := ⟨2, ![8192, 75]⟩
abbrev S8192x25 : Shape := ⟨2, ![8192, 25]⟩
abbrev S8x1024x25 : Shape := ⟨3, ![8, 1024, 25]⟩

abbrev nBuf : Space → Nat
  | .hbm => 31
  | .vmem => 6
  | .smem => 0
  | _ => 0

abbrev bufTy : (tb : Table) → Fin (tcTables nBuf tb) → BufTy
  | .hbm, ⟨0, _⟩ => ⟨S512x1024x25x3, .f32⟩
  | .hbm, ⟨1, _⟩ => ⟨S512x1024x75, .f32⟩
  | .hbm, ⟨2, _⟩ => ⟨S75, .i32⟩
  | .hbm, ⟨3, _⟩ => ⟨S75x1, .i32⟩
  | .hbm, ⟨4, _⟩ => ⟨S_, .i32⟩
  | .hbm, ⟨5, _⟩ => ⟨S_, .i32⟩
  | .hbm, ⟨6, _⟩ => ⟨S75x1, .i32⟩
  | .hbm, ⟨7, _⟩ => ⟨S75x1, .i32⟩
  | .hbm, ⟨8, _⟩ => ⟨S75x1, .i32⟩
  | .hbm, ⟨9, _⟩ => ⟨S_, .i32⟩
  | .hbm, ⟨10, _⟩ => ⟨S75x1, .i32⟩
  | .hbm, ⟨11, _⟩ => ⟨S75x1, .i1⟩
  | .hbm, ⟨12, _⟩ => ⟨S75x1, .i32⟩
  | .hbm, ⟨13, _⟩ => ⟨S75x1, .i32⟩
  | .hbm, ⟨14, _⟩ => ⟨S_, .i32⟩
  | .hbm, ⟨15, _⟩ => ⟨S75x1, .i32⟩
  | .hbm, ⟨16, _⟩ => ⟨S75x1, .i1⟩
  | .hbm, ⟨17, _⟩ => ⟨S75x1, .i1⟩
  | .hbm, ⟨18, _⟩ => ⟨S_, .i32⟩
  | .hbm, ⟨19, _⟩ => ⟨S75x1, .i32⟩
  | .hbm, ⟨20, _⟩ => ⟨S75x1, .i32⟩
  | .hbm, ⟨21, _⟩ => ⟨S75x1, .i32⟩
  | .hbm, ⟨22, _⟩ => ⟨S25, .i32⟩
  | .hbm, ⟨23, _⟩ => ⟨S1x25, .i32⟩
  | .hbm, ⟨24, _⟩ => ⟨S75x25, .i32⟩
  | .hbm, ⟨25, _⟩ => ⟨S75x25, .i32⟩
  | .hbm, ⟨26, _⟩ => ⟨S75x25, .i1⟩
  | .hbm, ⟨27, _⟩ => ⟨S75x25, .f32⟩
  | .hbm, ⟨28, _⟩ => ⟨S25x75, .f32⟩
  | .hbm, ⟨29, _⟩ => ⟨S512x1024x75, .f32⟩
  | .hbm, ⟨30, _⟩ => ⟨S512x1024x25x3, .f32⟩
  | .local _ .vmem, ⟨0, _⟩ => ⟨S8x1024x75, .f32⟩
  | .local _ .vmem, ⟨1, _⟩ => ⟨S8x1024x75, .f32⟩
  | .local _ .vmem, ⟨2, _⟩ => ⟨S75x25, .f32⟩
  | .local _ .vmem, ⟨3, _⟩ => ⟨S25x75, .f32⟩
  | .local _ .vmem, ⟨4, _⟩ => ⟨S8x1024x75, .f32⟩
  | .local _ .vmem, ⟨5, _⟩ => ⟨S8x1024x75, .f32⟩
  | _, _ => ⟨S512x1024x25x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S25x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024x75 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1024x25x3_S512x1024x75 : S512x1024x25x3.ShapeCasts S512x1024x75
  bcast_S75_S75x1_0 : S75.BroadcastsInDim S75x1 (![0] : Fin 1 → Fin S75x1.rank)
  bcast_S_S75x1 : S_.BroadcastsInDim S75x1 (![] : Fin 0 → Fin S75x1.rank)
  bcast_S25_S1x25_1 : S25.BroadcastsInDim S1x25 (![1] : Fin 1 → Fin S1x25.rank)
  bcast_S75x1_S75x25_0_1 : S75x1.BroadcastsInDim S75x25 (![0, 1] : Fin 2 → Fin S75x25.rank)
  bcast_S1x25_S75x25_0_1 : S1x25.BroadcastsInDim S75x25 (![0, 1] : Fin 2 → Fin S75x25.rank)
  transposes_S75x25_S25x75_1_0 : S75x25.Transposes [1, 0] S25x75
  inb_S8x1024x75_S8x1024x75_0_0_0 : ∀ a, (![0, 0, 0] : Fin 3 → Nat) a + S8x1024x75.size a ≤ S8x1024x75.size a
  h_S8x1024x75 : 0 < S8x1024x75.numel
  shapeCasts_S8x1024x75_S8x1024x75 : S8x1024x75.ShapeCasts S8x1024x75
  rotates_S8x1024x75_d1 : S8x1024x75.Rotates 1 none
  shapeCasts_S8x1024x75_S8192x75 : S8x1024x75.ShapeCasts S8192x75
  inb_S75x25_S75x25_0_0 : ∀ a, (![0, 0] : Fin 2 → Nat) a + S75x25.size a ≤ S75x25.size a
  h_S75x25 : 0 < S75x25.numel
  shapeCasts_S75x25_S75x25 : S75x25.ShapeCasts S75x25
  shapeCasts_S8192x25_S8x1024x25 : S8192x25.ShapeCasts S8x1024x25
  iota_S8x1024x25_d1_w32 : S8x1024x25.Iotas .tc 32 [1]
  shapeCasts_S8x1024x25_S8192x25 : S8x1024x25.ShapeCasts S8192x25
  inb_S25x75_S25x75_0_0 : ∀ a, (![0, 0] : Fin 2 → Nat) a + S25x75.size a ≤ S25x75.size a
  h_S25x75 : 0 < S25x75.numel
  shapeCasts_S25x75_S25x75 : S25x75.ShapeCasts S25x75
  shapeCasts_S8192x75_S8x1024x75 : S8192x75.ShapeCasts S8x1024x75
  shapeCasts_S512x1024x75_S512x1024x25x3 : S512x1024x75.ShapeCasts S512x1024x25x3
  dot_S8192x75_S75x25_S8192x25_1_0_0_1_n_n_wf : DotDims.WF S8192x75 S75x25 S8192x25 [1] [0] [0] [1] [] []
  dot_S8192x25_S25x75_S8192x75_1_0_0_1_n_n_wf : DotDims.WF S8192x25 S25x75 S8192x75 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x75.size a ≤ S512x1024x75.size a
  hwx0_0 : ∀ i : grid0.Coords, EltTy.bits .f32 = 32 ∨ (Rect.block (s := S512x1024x75) S8x1024x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x25.size a ≤ S75x25.size a
  hwx0_1 : ∀ i : grid0.Coords, EltTy.bits .f32 = 32 ∨ (Rect.block (s := S75x25) S75x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x75.size a ≤ S25x75.size a
  hwx0_2 : ∀ i : grid0.Coords, EltTy.bits .f32 = 32 ∨ (Rect.block (s := S25x75) S25x75.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024x75.size a ≤ S512x1024x75.size a
  hwx0_3 : ∀ i : grid0.Coords, EltTy.bits .f32 = 32 ∨ (Rect.block (s := S512x1024x75) S8x1024x75.size (cc0_transform_3 i) (hinb0_3 i)).WholeWords (EltTy.packing .f32)

variable [Facts₀]

def dot_S8192x75_S75x25_S8192x25_1_0_0_1_n_n : DotDims S8192x75 S75x25 S8192x25 where
  lhsContracting := [1]
  rhsContracting := [0]
  lhsNonContracting := [0]
  rhsNonContracting := [1]
  lhsBatch := []
  rhsBatch := []
  wf := dot_S8192x75_S75x25_S8192x25_1_0_0_1_n_n_wf
def dot_S8192x25_S25x75_S8192x75_1_0_0_1_n_n : DotDims S8192x25 S25x75 S8192x75 where
  lhsContracting := [1]
  rhsContracting := [0]
  lhsNonContracting := [0]
  rhsNonContracting := [1]
  lhsBatch := []
  rhsBatch := []
  wf := dot_S8192x25_S25x75_S8192x75_1_0_0_1_n_n_wf

abbrev win0_0 : Pipeline.Window sig grid0 :=
  Pipeline.Window.ofSpec (Memref.whole main_v0) S8x1024x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S75x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S25x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x1024x75.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024x25x3 : Shape := ⟨4, ![512, 1024, 25, 3]⟩
abbrev S512x1023x25x3 : Shape := ⟨4, ![512, 1023, 25, 3]⟩
abbrev S_ : Shape := ⟨0, ![]⟩
abbrev S512x1023x25 : Shape := ⟨3, ![512, 1023, 25]⟩
abbrev S512x1x25 : Shape := ⟨3, ![512, 1, 25]⟩
abbrev S512x1024x25 : Shape := ⟨3, ![512, 1024, 25]⟩
abbrev S512x1024x25x1 : Shape := ⟨4, ![512, 1024, 25, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024x25x3, .f32⟩
  | .hbm, ⟨1, _⟩ => ⟨S512x1023x25x3, .f32⟩
  | .hbm, ⟨2, _⟩ => ⟨S512x1023x25x3, .f32⟩
  | .hbm, ⟨3, _⟩ => ⟨S512x1023x25x3, .f32⟩
  | .hbm, ⟨4, _⟩ => ⟨S512x1023x25x3, .f32⟩
  | .hbm, ⟨5, _⟩ => ⟨S_, .f32⟩
  | .hbm, ⟨6, _⟩ => ⟨S512x1023x25, .f32⟩
  | .hbm, ⟨7, _⟩ => ⟨S512x1023x25, .f32⟩
  | .hbm, ⟨8, _⟩ => ⟨S512x1x25, .f32⟩
  | .hbm, ⟨9, _⟩ => ⟨S_, .f32⟩
  | .hbm, ⟨10, _⟩ => ⟨S512x1x25, .f32⟩
  | .hbm, ⟨11, _⟩ => ⟨S512x1024x25, .f32⟩
  | .hbm, ⟨12, _⟩ => ⟨S512x1024x25x1, .f32⟩
  | .hbm, ⟨13, _⟩ => ⟨S512x1024x25x3, .f32⟩
  | .hbm, ⟨14, _⟩ => ⟨S512x1024x25x3, .f32⟩
  | _, _ => ⟨S512x1024x25x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S512x1024x25x3_S512x1023x25x3_0_1_0_0 : S512x1024x25x3.Slices ![0, 1, 0, 0] S512x1023x25x3
  slices_S512x1024x25x3_S512x1023x25x3_0_0_0_0 : S512x1024x25x3.Slices ![0, 0, 0, 0] S512x1023x25x3
  reducesTo_S512x1023x25x3_S512x1023x25_d3 : S512x1023x25x3.ReducesTo [3] S512x1023x25
  h_S_ : 0 < S_.numel
  slices_S512x1023x25_S512x1x25_0_0_0 : S512x1023x25.Slices ![0, 0, 0] S512x1x25
  bcast_S_S512x1x25 : S_.BroadcastsInDim S512x1x25 (![] : Fin 0 → Fin S512x1x25.rank)
  concatenates_S512x1023x25_S512x1x25_S512x1024x25_d1 : Shape.Concatenates [S512x1023x25, S512x1x25] S512x1024x25 1
  bcast_S512x1024x25_S512x1024x25x1_0_1_2 : S512x1024x25.BroadcastsInDim S512x1024x25x1 (![0, 1, 2] : Fin 3 → Fin S512x1024x25x1.rank)
  bcast_S512x1024x25x1_S512x1024x25x3_0_1_2_3 : S512x1024x25x1.BroadcastsInDim S512x1024x25x3 (![0, 1, 2, 3] : Fin 4 → Fin S512x1024x25x3.rank)

variable [Facts₀]

class Facts : Prop extends Facts₀ where

variable [Facts]
-- ==== Proof.FrameDistance.lean ====
/-
  The frame-to-frame distance of a skeleton sequence, as one function of the coordinate array.

  The array `x` holds, for each of 512 sequences, 1024 frames of 25 nodes with 3 coordinates each. For a frame
  `s` that is not the last one, the distance of node `n` is the Euclidean length of the displacement of that node
  from frame `s` to frame `s + 1`: the square root of the sum over the three coordinates of the squared
  differences. The last frame is paired with itself and has distance zero. The result adds each node's distance
  onto its three coordinates.

  Besides the definition, this file has the two facts about sums over the extended reals that bring a product
  with a zero-one matrix to that form: multiplying a row of 75 = 25 · 3 entries by the matrix whose column `n`
  marks the three positions `3 n, 3 n + 1, 3 n + 2` adds up those three entries (`x * 0 = 0` and `x * 1 = x`
  for EVERY extended real, so nothing is asked of the entries), and a sum of squares is never negative, so
  clamping it at zero from below changes nothing.
-/
import Idealize.ShloMosaic.PureOps.Ideal
import Idealize.ShloMosaic.Lib.ValueIdx

noncomputable section

open scoped BigOperators
open Idealize.ShloMosaic Idealize.ShloMosaic.ValueIdx

namespace FrameDistance

/-- The coordinate array: sequence, frame, node, coordinate. -/
abbrev Coords := (⟨4, ![512, 1024, 25, 3]⟩ : Shape).Idx → EReal

/-- The frame after `s`, the last frame's successor being the first (that wrapped pair is never used). -/
def next (s : Fin 1024) : Fin 1024 := ⟨(s.val + 1) % 1024, Nat.mod_lt _ (by decide)⟩

theorem next_val_of_lt (s : Fin 1024) (h : s.val < 1023) : (next s).val = s.val + 1 := by
  show (s.val + 1) % 1024 = s.val + 1
  omega

/-- The squared difference of one coordinate of node `n` between frames `s'` and `s`. -/
def sqDiff (x : Coords) (b : Fin 512) (s s' : Fin 1024) (n : Fin 25) (c : Fin 3) : EReal :=
  (x (ix4 b s' n c) - x (ix4 b s n c)) * (x (ix4 b s' n c) - x (ix4 b s n c))

/-- The distance node `n` moves from frame `s` to the next one; zero at the last frame. -/
def dist (x : Coords) (b : Fin 512) (s : Fin 1024) (n : Fin 25) : EReal :=
  if s.val < 1023 then Ideal.sqrt (∑ c : Fin 3, sqDiff x b s (next s) n c) else 0

/-- The result: every coordinate plus its node's distance to the next frame. -/
def out (x : Coords) : Coords := fun i => x i + dist x (i 0) (i 1) (i 2)

/-- A square is never negative, at the infinities too. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

theorem sqDiff_nonneg (x : Coords) (b : Fin 512) (s s' : Fin 1024) (n : Fin 25) (c : Fin 3) :
    0 ≤ sqDiff x b s s' n c := mul_self_nonneg _

/-- A row of 75 entries times the zero-one column that marks the positions `3 n, 3 n + 1, 3 n + 2` is the sum
    of those three entries. -/
theorem sum_mul_group (y e : Fin 75 → EReal) (n : Fin 25)
    (h1 : ∀ f : Fin 75, f.val / 3 = n.val → e f = 1) (h0 : ∀ f : Fin 75, f.val / 3 ≠ n.val → e f = 0) :
    ∑ f, y f * e f = ∑ c : Fin 3, y ⟨3 * n.val + c.val, by have := n.isLt; have := c.isLt; omega⟩ := by
  have hterm : ∀ f, y f * e f = if f.val / 3 = n.val then y f else 0 := fun f => by
    by_cases h : f.val / 3 = n.val
    · rw [if_pos h, h1 f h, mul_one]
    · rw [if_neg h, h0 f h, mul_zero]
  simp only [hterm]
  rw [← Equiv.sum_comp (finProdFinEquiv : Fin 25 × Fin 3 ≃ Fin 75), Fintype.sum_prod_type]
  rw [Finset.sum_eq_single n]
  · refine Finset.sum_congr rfl fun c _ => ?_
    have hv : ((finProdFinEquiv : Fin 25 × Fin 3 ≃ Fin 75) (n, c)).val = c.val + 3 * n.val := rfl
    have hc := c.isLt
    rw [if_pos (by rw [hv]; omega)]
    exact congrArg y (Fin.ext (by rw [hv]; show c.val + 3 * n.val = 3 * n.val + c.val; omega))
  · intro a _ ha
    refine Finset.sum_eq_zero fun c _ => ?_
    have hv : ((finProdFinEquiv : Fin 25 × Fin 3 ≃ Fin 75) (a, c)).val = c.val + 3 * a.val := rfl
    have hc := c.isLt
    rw [if_neg (by rw [hv]; intro h; exact ha (Fin.ext (by omega)))]
  · intro h
    exact absurd (Finset.mem_univ _) h

/-- Clamping a sum of squared differences at zero from below changes nothing. -/
theorem max_sum_sqDiff (x : Coords) (b : Fin 512) (s s' : Fin 1024) (n : Fin 25) :
    max (∑ c : Fin 3, sqDiff x b s s' n c) 0 = ∑ c : Fin 3, sqDiff x b s s' n c :=
  max_eq_left (Finset.sum_nonneg fun c _ => sqDiff_nonneg x b s s' n c)

end FrameDistance

end
-- ==== Proof.Reference.lean ====
/-
  The reference computes the frame-to-frame distance.

  Read one entry at a time: the two slices of the coordinate array are frames `1 … 1023` and frames `0 … 1022`,
  so entry `(b, s, n, c)` of their difference is coordinate `c` of node `n` at frame `s + 1` less the same at
  frame `s`; the sum over the last axis of the squares starts from zero; its square root is the distance for
  the frames `s < 1023`; the row of zeros joined behind them is the last frame's distance; and the two
  broadcasts repeat a node's distance over its three coordinates before the final addition.
-/
import proofs.«153078_j61151744360729_2_alg».proof.Proof.Gen.ReferenceIdeal.Read
import proofs.«153078_j61151744360729_2_alg».proof.Proof.FrameDistance

noncomputable section

open scoped BigOperators
open Idealize.ShloMosaic Idealize.ShloMosaic.ValueIdx

namespace FrameDistance.Reference

open Cert.ReferenceIdeal Cert.ReferenceIdeal.Gen Cert.ReferenceIdeal.Read

/-- The distances of the frames before the last, as the reference computes them: at `(b, s, n)` with
    `s < 1023` the square root of the summed squared differences between frames `s + 1` and `s`. -/
theorem moved (x : Coords) (b : Fin 512) (s : Fin 1023) (n : Fin 25) :
    val_main_v5 (F := Ideal) x (ix3 b s n)
      = Ideal.sqrt (∑ c : Fin 3, sqDiff x b ⟨s.val, by have := s.isLt; omega⟩ ⟨s.val + 1, by have := s.isLt; omega⟩ n c) := by
  rw [val_main_v5_apply, val_main_v4_apply]
  have e0 : ∀ k : Fin 3, idx_main_v0 (idx_main_v4 (ix3 b s n) k) = ix4 b (⟨s.val + 1, by have := s.isLt; omega⟩ : Fin 1024) n k :=
    fun k => funext fun a => Fin.ext (by
      match a with
      | ⟨0, _⟩ => rfl
      | ⟨1, _⟩ => show 1 + s.val = s.val + 1; omega
      | ⟨2, _⟩ => rfl
      | ⟨3, _⟩ => rfl)
  have e1 : ∀ k : Fin 3, idx_main_v1 (idx_main_v4 (ix3 b s n) k) = ix4 b (⟨s.val, by have := s.isLt; omega⟩ : Fin 1024) n k :=
    fun k => funext fun a => Fin.ext (by
      match a with
      | ⟨0, _⟩ => rfl
      | ⟨1, _⟩ => rfl
      | ⟨2, _⟩ => rfl
      | ⟨3, _⟩ => rfl)
  simp only [val_main_v3_apply, val_main_v2_apply, val_main_v0_apply, val_main_v1_apply, val_main_cst_apply, e0, e1,
    Ideal.hostUnary_sqrt_def, Ideal.mulf_def, Ideal.subf_def, Ideal.ofBits_def, Ideal.ofBits_zero_f32, zero_add]
  rfl

/-- The reference's distances with the row of zeros joined behind: the distance of every frame. -/
theorem joined (x : Coords) (b : Fin 512) (s : Fin 1024) (n : Fin 25) :
    val_main_v8 (F := Ideal) x (ix3 b s n) = dist x b s n := by
  unfold val_main_v8 dist
  by_cases h : s.val < 1023
  · rw [if_pos h]
    rw [concatenate_pair_apply_left (1 : Fin 3) (val_main_v5 (F := Ideal) x) (val_main_v7 (F := Ideal))
      concatenates_S512x1023x25_S512x1x25_S512x1024x25_d1 (ix3 b s n) rfl (ix3 b (⟨s.val, h⟩ : Fin 1023) n)
      (fun a => by match a with | ⟨0, _⟩ => rfl | ⟨1, _⟩ => rfl | ⟨2, _⟩ => rfl)]
    rw [moved]
    have hn : (⟨s.val + 1, by omega⟩ : Fin 1024) = next s := Fin.ext (next_val_of_lt s h).symm
    have hs : (⟨s.val, by omega⟩ : Fin 1024) = s := Fin.ext rfl
    show Ideal.sqrt (∑ c : Fin 3, sqDiff x b (⟨s.val, _⟩ : Fin 1024) (⟨s.val + 1, _⟩ : Fin 1024) n c) = _
    rw [hn, hs]
  · rw [if_neg h]
    have hs : s.val = 1023 := by have := s.isLt; omega
    rw [concatenate_pair_apply_right (1 : Fin 3) (val_main_v5 (F := Ideal) x) (val_main_v7 (F := Ideal))
      concatenates_S512x1023x25_S512x1x25_S512x1024x25_d1 (ix3 b s n) rfl rfl (ix3 b (0 : Fin 1) n)
      (fun a ha => by
        match a with
        | ⟨0, _⟩ => rfl
        | ⟨1, _⟩ => exact absurd rfl ha
        | ⟨2, _⟩ => rfl)
      (by show 0 + 1023 = s.val; omega)]
    rw [val_main_v7_apply, val_main_cst_0_apply]
    exact Ideal.ofBits_zero_f32

/-- THE REFERENCE'S RESULT is the specification: each coordinate plus its node's distance to the next frame. -/
theorem result (x : Coords) : val_main_v11 (F := Ideal) x = out x := by
  funext i
  obtain ⟨b, s, n, c, rfl⟩ : ∃ (b : Fin 512) (s : Fin 1024) (n : Fin 25) (c : Fin 3), i = ix4 b s n c :=
    ⟨i 0, i 1, i 2, i 3, eq_ix4 i⟩
  rw [val_main_v11_apply, val_main_v10_apply, val_main_v9_apply]
  have e : idx_main_v9 (idx_main_v10 (ix4 b s n c)) = ix3 b s n :=
    funext fun a => Fin.ext (by match a with | ⟨0, _⟩ => rfl | ⟨1, _⟩ => rfl | ⟨2, _⟩ => rfl)
  rw [e, joined]
  rfl

end FrameDistance.Reference

end
-- ==== Proof.Merged.lean ====
/-
  The coordinate array with each node's three coordinates side by side.

  Re-laying the array `[512, 1024, 25, 3]` as `[512, 1024, 75]` puts coordinate `c` of node `n` at merged
  position `3 n + c`; nothing else moves. In that layout the result reads: the entry at frame `s`, position `f`
  plus — for a frame before the last — the square root of the summed squares of the differences to the next frame
  over the three positions of the node `⌊f / 3⌋`.
-/
import Idealize.ShloMosaic.Lib.Pipeline.Value
import proofs.«153078_j61151744360729_2_alg».proof.Proof.FrameDistance

noncomputable section

open scoped BigOperators
open Idealize.ShloMosaic Idealize.ShloMosaic.ValueIdx

namespace FrameDistance

/-- The node a merged node-coordinate position belongs to. -/
def node (f : Fin 75) : Fin 25 := ⟨f.val / 3, by have := f.isLt; omega⟩

/-- The coordinate a merged position holds. -/
def coord (f : Fin 75) : Fin 3 := ⟨f.val % 3, Nat.mod_lt _ (by decide)⟩

/-- The merged position of coordinate `c` of node `n`. -/
def pos (n : Fin 25) (c : Fin 3) : Fin 75 := ⟨3 * n.val + c.val, by have := n.isLt; have := c.isLt; omega⟩

theorem pos_node_coord (f : Fin 75) : pos (node f) (coord f) = f :=
  Fin.ext (by show 3 * (f.val / 3) + f.val % 3 = f.val; omega)

theorem node_pos (n : Fin 25) (c : Fin 3) : node (pos n c) = n :=
  Fin.ext (by have := c.isLt; show (3 * n.val + c.val) / 3 = n.val; omega)

/-- The merged shape. -/
abbrev Merged : Shape := ⟨3, ![512, 1024, 75]⟩

/-- The merged array at position `3 n + c` is coordinate `c` of node `n`. -/
theorem merged_apply (x : Coords) (h : (⟨4, ![512, 1024, 25, 3]⟩ : Shape).ShapeCasts Merged)
    (B : Fin 512) (s : Fin 1024) (n : Fin 25) (c : Fin 3) :
    shapeCast Merged x h (ix3 B s (pos n c)) = x (ix4 B s n c) :=
  shapeCast_apply x h _ _ (by
    rw [Shape.rowMajor_val_four, Shape.rowMajor_val_three]
    show ((B.val * 1024 + s.val) * 25 + n.val) * 3 + c.val = (B.val * 1024 + s.val) * 75 + (3 * n.val + c.val)
    omega)

/-- Laying the merged array out again as nodes of three coordinates gives the array back. -/
theorem unmerged (x : Coords) (h : (⟨4, ![512, 1024, 25, 3]⟩ : Shape).ShapeCasts Merged)
    (h' : Merged.ShapeCasts (⟨4, ![512, 1024, 25, 3]⟩ : Shape)) :
    shapeCast (⟨4, ![512, 1024, 25, 3]⟩ : Shape) (shapeCast Merged x h) h' = x :=
  shapeCast_shapeCast x h h'

/-- THE RESULT IN THE MERGED LAYOUT, in terms of the merged array alone. -/
theorem merged_out (x : Coords) (h : (⟨4, ![512, 1024, 25, 3]⟩ : Shape).ShapeCasts Merged)
    (B : Fin 512) (s : Fin 1024) (f : Fin 75) :
    shapeCast Merged (out x) h (ix3 B s f)
      = shapeCast Merged x h (ix3 B s f)
        + (if s.val < 1023 then
            Ideal.sqrt (∑ c : Fin 3,
              (shapeCast Merged x h (ix3 B (next s) (pos (node f) c)) - shapeCast Merged x h (ix3 B s (pos (node f) c)))
                * (shapeCast Merged x h (ix3 B (next s) (pos (node f) c)) - shapeCast Merged x h (ix3 B s (pos (node f) c))))
          else 0) := by
  conv_lhs => rw [← pos_node_coord f]
  conv_rhs => lhs; rw [← pos_node_coord f]
  simp only [merged_apply]
  rfl

end FrameDistance

end
-- ==== Proof.Words.lean ====
/-
  The integer words behind the two zero-one matrices and the last-frame mask.

  The grouping matrix marks entry `(f, n)` when position `f` of the 75 merged node-coordinate positions
  belongs to node `n`, that is when `⌊f / 3⌋ = n`. The floor division is spelled on signed 32-bit words the
  way a rounding-toward-zero quotient is corrected to a floor: where the signs of dividend and divisor differ
  and the remainder is not zero, one is subtracted. For the dividends `0 … 74` and the divisor `3` no
  correction applies and the result is the natural-number quotient. The test `⌊f / 3⌋ = n`, as a one-bit word
  read as an unsigned number, is the real number one where it holds and zero elsewhere. The mask compares the
  frame number, as a signed word, with 1023.
-/
import Idealize.ShloMosaic.PureOps.Ideal
import Idealize.ShloMosaic.Lib.ValueIdx

noncomputable section

open Idealize.ShloMosaic

namespace FrameDistance

/-- The sign of a signed word: zero, minus one or one. -/
def sgn (a : BitVec 32) : BitVec 32 := if a = 0 then 0 else if a.msb then -1 else 1

/-- The floor of a signed word's quotient by three: the quotient rounded toward zero, less one where the
    operands' signs differ and the division is not exact. -/
def floorDiv3 (a : BitVec 32) : BitVec 32 :=
  Scalar.select
    (IntOp.andi (IntOp.cmpi .ne (sgn a) (sgn 3#32)) (IntOp.cmpi .ne (IntOp.remsi .host a 3#32) 0#32))
    (IntOp.subi (IntOp.divsi .host a 3#32) 1#32) (IntOp.divsi .host a 3#32)

/-- On the positions `0 … 74` it is the natural-number quotient. -/
theorem floorDiv3_ofNat : ∀ f : Fin 75, floorDiv3 (BitVec.ofNat 32 f.val) = BitVec.ofNat 32 (f.val / 3) := by
  decide

/-- Two small naturals are equal as 32-bit words exactly when they are equal. -/
theorem ofNat_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The equality test of two words, read as an unsigned number, is one or zero. -/
theorem indicator_word (a b : BitVec 32) :
    FloatOps.uitofp (F := Ideal) .f32 (IntOp.cmpi .eq a b) = if a = b then (1 : EReal) else 0 := by
  show ((((BitVec.ofBool (a == b)).toNat : ℕ) : ℝ) : EReal) = _
  by_cases h : a = b
  · have hb : (a == b) = true := by simpa using h
    rw [hb, if_pos h]
    simp
  · have hb : (a == b) = false := by simpa using h
    rw [hb, if_neg h]
    simp

/-- The grouping test at position `f` and node `n`. -/
theorem indicator_group (f : Fin 75) (n : Fin 25) :
    FloatOps.uitofp (F := Ideal) .f32 (IntOp.cmpi .eq (floorDiv3 (BitVec.ofNat 32 f.val)) (BitVec.ofNat 32 n.val))
      = if f.val / 3 = n.val then (1 : EReal) else 0 := by
  rw [indicator_word, floorDiv3_ofNat]
  have hf := f.isLt
  have hn := n.isLt
  exact if_congr (ofNat_eq_iff _ _ (by omega) (by omega)) rfl rfl

/-- The signed test "frame `s` is before frame 1023", for the frame numbers `0 … 1023`. -/
theorem before_last : ∀ s : Fin 1024,
    IntOp.cmpi .slt (BitVec.ofNat 32 s.val) 1023#32 = if s.val < 1023 then 1#1 else 0#1 := by
  decide +kernel

/-- A choice on that test is a choice on the frame number. -/
theorem select_before_last {α : Type} (s : Fin 1024) (a b : α) :
    Scalar.select (IntOp.cmpi .slt (BitVec.ofNat 32 s.val) 1023#32) a b = if s.val < 1023 then a else b := by
  rw [before_last]
  by_cases h : s.val < 1023
  · rw [if_pos h, if_pos h]; exact ValueIdx.select_one a b
  · rw [if_neg h, if_neg h]; exact ValueIdx.select_zero a b

end FrameDistance

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibSelectColumn.lean ====
/-
  A column of zeros with a single one picks one entry of a row.

  Over the extended reals `x * 0 = 0` for EVERY `x`, the two infinities included, and `x * 1 = x`. So the sum
  `∑ k, x k * e k`, with `e` zero everywhere but at one position `k₀` where it is one, has a single surviving
  term, `x k₀`: the product of a row with a 0/1 selection column copies the selected entry exactly, whatever the
  row holds (no finiteness is asked of `x`).

  The indicator as a kernel builds it from integer words: the one-bit answer of an equality test, widened with
  zeros to 32 bits and converted to a float as a signed integer, is `1` where the two words are equal and `0`
  elsewhere. And the two words a de-interleaving kernel compares — a row position `k` against twice a column
  position `q`, or twice it plus one — are equal exactly when the naturals are, as long as nothing wraps.
-/
import Idealize.ShloMosaic.PureOps.Ideal
import Idealize.ShloMosaic.Lib.ValueIdx

noncomputable section

open scoped BigOperators
open Idealize.ShloMosaic

namespace SelectColumn

/-- A row times a column that is one at `k₀` and zero elsewhere is the row's entry at `k₀`. -/
theorem sum_mul_indicator {K : ℕ} (x e : Fin K → EReal) (k₀ : Fin K)
    (h1 : e k₀ = 1) (h0 : ∀ k, k ≠ k₀ → e k = 0) : ∑ k, x k * e k = x k₀ := by
  rw [Finset.sum_eq_single k₀]
  · rw [h1, mul_one]
  · intro k _ hk
    rw [h0 k hk, mul_zero]
  · intro h
    exact absurd (Finset.mem_univ _) h

/-- The equality test of two words, widened to 32 bits and read as a signed integer, is one or zero. -/
theorem indicator_word (a b : BitVec 32) :
    FloatOps.sitofp (F := Ideal) .f32 ((IntOp.cmpi .eq a b).setWidth 32) = if a = b then (1 : EReal) else 0 := by
  show (((((BitVec.ofBool (a == b)).setWidth 32).toInt : ℤ) : ℝ) : EReal) = _
  by_cases h : a = b
  · have hb : (a == b) = true := by simpa using h
    have e1 : ((BitVec.ofBool true).setWidth 32).toInt = 1 := by decide
    rw [hb, if_pos h, e1]
    simp
  · have hb : (a == b) = false := by simpa using h
    have e0 : ((BitVec.ofBool false).setWidth 32).toInt = 0 := by decide
    rw [hb, if_neg h, e0]
    simp

/-- Position `k` of 128 is twice position `q` of 64, as 32-bit words, exactly when `k = 2 q`. -/
theorem word_even (k q : ℕ) (hk : k < 128) (hq : q < 64) :
    BitVec.ofNat 32 k = IntOp.muli 2#32 (BitVec.ofNat 32 q) ↔ k = 2 * q := by
  unfold IntOp.muli
  rw [← BitVec.toNat_inj, BitVec.toNat_mul, BitVec.toNat_ofNat, BitVec.toNat_ofNat, BitVec.toNat_ofNat]
  have e : (2 : ℕ) ^ 32 = 4294967296 := by norm_num
  rw [e]
  omega

/-- Position `k` of 128 is twice position `q` of 64 plus one, as 32-bit words, exactly when `k = 2 q + 1`. -/
theorem word_odd (k q : ℕ) (hk : k < 128) (hq : q < 64) :
    BitVec.ofNat 32 k = IntOp.addi (IntOp.muli 2#32 (BitVec.ofNat 32 q)) 1#32 ↔ k = 2 * q + 1 := by
  unfold IntOp.addi IntOp.muli
  rw [← BitVec.toNat_inj, BitVec.toNat_add, BitVec.toNat_mul, BitVec.toNat_ofNat, BitVec.toNat_ofNat,
    BitVec.toNat_ofNat, BitVec.toNat_ofNat]
  have e : (2 : ℕ) ^ 32 = 4294967296 := by norm_num
  rw [e]
  omega

end SelectColumn

end
-- ==== Proof.Body.lean ====
import proofs.«153078_j61151744360729_2_alg».proof.Proof.Gen.KernelIdeal.Skeleton
import proofs.«153078_j61151744360729_2_alg».proof.Proof.Merged
import proofs.«153078_j61151744360729_2_alg».proof.Proof.Words
import proofs.«153078_j61151744360729_2_alg».proof.Proof.LibMatmul
import proofs.«153078_j61151744360729_2_alg».proof.Proof.LibSelectColumn
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx

namespace FrameDistance.Body

open Cert.KernelIdeal Cert.KernelIdeal.Gen

/-- Row `1024 b + s` of the 8192 rows in which a block's eight sequences of 1024 frames are laid end to end. -/
def row (b : Fin 8) (s : Fin 1024) : Fin 8192 := ⟨b.val * 1024 + s.val, by have := b.isLt; have := s.isLt; omega⟩

section Layout
variable {α : Type}

/-- Laying the frames of a block end to end keeps every entry: row `1024 b + s` is frame `s` of sequence `b`. -/
theorem flat75 (v : S8x1024x75.Idx → α) (h : S8x1024x75.ShapeCasts S8192x75) (b : Fin 8) (s : Fin 1024) (f : Fin 75) :
    shapeCast S8192x75 v h (ix2 (row b s) f) = v (ix3 b s f) :=
  shapeCast_apply v h _ _ (by rw [Shape.rowMajor_val_three, Shape.rowMajor_val_two]; rfl)

theorem unflat75 (v : S8192x75.Idx → α) (h : S8192x75.ShapeCasts S8x1024x75) (b : Fin 8) (s : Fin 1024) (f : Fin 75) :
    shapeCast S8x1024x75 v h (ix3 b s f) = v (ix2 (row b s) f) :=
  shapeCast_apply v h _ _ (by rw [Shape.rowMajor_val_three, Shape.rowMajor_val_two]; rfl)

theorem flat25 (v : S8x1024x25.Idx → α) (h : S8x1024x25.ShapeCasts S8192x25) (b : Fin 8) (s : Fin 1024) (n : Fin 25) :
    shapeCast S8192x25 v h (ix2 (row b s) n) = v (ix3 b s n) :=
  shapeCast_apply v h _ _ (by rw [Shape.rowMajor_val_three, Shape.rowMajor_val_two]; rfl)

theorem unflat25 (v : S8192x25.Idx → α) (h : S8192x25.ShapeCasts S8x1024x25) (b : Fin 8) (s : Fin 1024) (n : Fin 25) :
    shapeCast S8x1024x25 v h (ix3 b s n) = v (ix2 (row b s) n) :=
  shapeCast_apply v h _ _ (by rw [Shape.rowMajor_val_three, Shape.rowMajor_val_two]; rfl)

/-- Rolling the frames of a block by 1023 of 1024 places puts the NEXT frame at each frame's place. -/
theorem roll_next (v : S8x1024x75.Idx → α) (h : S8x1024x75.Rotates 1 none) (b : Fin 8) (s : Fin 1024) (f : Fin 75) :
    dynamicRotate 1 1023#32 none v h (ix3 b s f) = v (ix3 b (next s) f) :=
  dynamicRotate_apply 1 1023#32 v h (ix3 b s f) (ix3 b (next s) f) (fun a => by
    match a with
    | ⟨0, _⟩ => rw [if_neg (fun e => absurd (congrArg Fin.val e) (show (0 : ℕ) ≠ 1 by decide))]
    | ⟨1, h1⟩ =>
      have e1 : (⟨1, h1⟩ : Fin S8x1024x75.rank) = 1 := Fin.ext rfl
      rw [if_pos e1]
      show (s.val + 1) % 1024 = (s.val + 1024 - 1023 % 1024) % 1024
      omega
    | ⟨2, _⟩ => rw [if_neg (fun e => absurd (congrArg Fin.val e) (show (2 : ℕ) ≠ 1 by decide))])

end Layout

/-! ## The body of the kernel, read at one entry of the block -/

/-- The squared difference, at merged position `f`, between the next frame and frame `s` of sequence `b` of a
    block. -/
def blockSq (x0 : Vec Ideal S8x1024x75 .f32) (b : Fin 8) (s : Fin 1024) (f : Fin 75) : EReal :=
  (x0 (ix3 b (next s) f) - x0 (ix3 b s f)) * (x0 (ix3 b (next s) f) - x0 (ix3 b s f))

theorem blockSq_nonneg (x0 : Vec Ideal S8x1024x75 .f32) (b : Fin 8) (s : Fin 1024) (f : Fin 75) :
    0 ≤ blockSq x0 b s f := mul_self_nonneg _

/-- The distance node `n` moves from frame `s` to the next within a block; zero at the last frame. -/
def blockDist (x0 : Vec Ideal S8x1024x75 .f32) (b : Fin 8) (s : Fin 1024) (n : Fin 25) : EReal :=
  if s.val < 1023 then Ideal.sqrt (∑ c : Fin 3, blockSq x0 b s (pos n c)) else 0

theorem sqrt_apply {s : Shape} {φ : FTy} (v : FVec Ideal s φ) (i : s.Idx) : sqrt v i = Ideal.sqrt (v i) := rfl

/-- The mask on the frame number chooses between two values by `s < 1023`. -/
theorem mask_apply {α : Type} (h : S8x1024x25.Iotas .tc 32 [1]) (u w : S8x1024x25.Idx → α)
    (b : Fin 8) (s : Fin 1024) (n : Fin 25) :
    select (cmpi .slt (iota .tc S8x1024x25 32 [1] h) (broadcast S8x1024x25 1023#32)) u w (ix3 b s n)
      = if s.val < 1023 then u (ix3 b s n) else w (ix3 b s n) := by
  rw [select_apply]
  show Scalar.select (IntOp.cmpi .slt (iota .tc S8x1024x25 32 [1] h (ix3 b s n)) 1023#32) _ _ = _
  rw [iota_single_apply]
  exact select_before_last s _ _

/-- The first product: the squared differences of a frame times the grouping matrix adds up, for each node,
    the squares of its three coordinates. -/
theorem grouped (x0 : Vec Ideal S8x1024x75 .f32) (g : Vec Ideal S75x25 .f32)
    (hg : ∀ (f : Fin 75) (n : Fin 25), g (ix2 f n) = if f.val / 3 = n.val then (1 : EReal) else 0)
    (b : Fin 8) (s : Fin 1024) (n : Fin 25) :
    FloatOps.matmul (F := Ideal) (φ₁ := .f32) (φ₂ := .f32) dot_S8192x75_S75x25_S8192x25_1_0_0_1_n_n none
        (shapeCast S8192x75
          (mulf (F := Ideal) (φ := .f32) (subf (F := Ideal) (φ := .f32) (dynamicRotate 1 (1023#32) none x0 rotates_S8x1024x75_d1) x0)
            (subf (F := Ideal) (φ := .f32) (dynamicRotate 1 (1023#32) none x0 rotates_S8x1024x75_d1) x0))
          shapeCasts_S8x1024x75_S8192x75)
        g (constant (F := Ideal) S8192x25 .f32 0x00000000#32) (ix2 (row b s) n)
      = ∑ c : Fin 3, blockSq x0 b s (pos n c) := by
  rw [PlainMatmul.apply ⟨rfl, rfl, rfl, rfl, rfl, rfl⟩]
  refine (sum_mul_group _ (fun f' => g (ix2 f' n)) n
    (fun f' h => by show g (ix2 f' n) = 1; rw [hg, if_pos h])
    (fun f' h => by show g (ix2 f' n) = 0; rw [hg, if_neg h])).trans ?_
  refine Finset.sum_congr rfl fun c _ => ?_
  rw [flat75, mulf_apply, subf_apply, roll_next]
  rfl

/-- THE BODY AT AN ENTRY: what the kernel stores at frame `s`, merged position `f` of sequence `b` of its block
    is the block's entry there plus the distance its node moves to the next frame — given that the two matrices
    it is handed are the grouping matrix and its transpose. -/
theorem payload_apply (x0 : Vec Ideal S8x1024x75 .f32) (g : Vec Ideal S75x25 .f32) (gt : Vec Ideal S25x75 .f32)
    (hg : ∀ (f : Fin 75) (n : Fin 25), g (ix2 f n) = if f.val / 3 = n.val then (1 : EReal) else 0)
    (hgt : ∀ (n : Fin 25) (f : Fin 75), gt (ix2 n f) = if f.val / 3 = n.val then (1 : EReal) else 0)
    (b : Fin 8) (s : Fin 1024) (f : Fin 75) :
    k0_pay1 (F := Ideal) x0 g gt (ix3 b s f) = x0 (ix3 b s f) + blockDist x0 b s (node f) := by
  unfold k0_pay1
  simp only [shapeCast_self, matmul]
  rw [addf_apply, unflat75, PlainMatmul.apply ⟨rfl, rfl, rfl, rfl, rfl, rfl⟩]
  refine congrArg (x0 (ix3 b s f) + ·) ?_
  refine (SelectColumn.sum_mul_indicator _ (fun k => gt (ix2 k f)) (node f)
    (by show gt (ix2 (node f) f) = 1; rw [hgt, if_pos (show f.val / 3 = (node f).val from rfl)])
    (fun k hk => by
      show gt (ix2 k f) = 0
      rw [hgt, if_neg (fun e => hk (Fin.ext e.symm))])).trans ?_
  rw [flat25, mask_apply]
  unfold blockDist
  by_cases h : s.val < 1023
  · rw [if_pos h, if_pos h, sqrt_apply, maximumf_apply, unflat25, grouped x0 g hg, broadcast_apply]
    show Ideal.sqrt (max (∑ c : Fin 3, blockSq x0 b s (pos (node f) c)) (Ideal.ofBits .f32 0x00000000#32)) = _
    rw [Ideal.ofBits_zero_f32, max_eq_left (Finset.sum_nonneg fun c _ => blockSq_nonneg x0 b s _)]
  · rw [if_neg h, if_neg h, broadcast_apply]
    exact Ideal.ofBits_zero_f32

end FrameDistance.Body

end
-- ==== Proof.HostPrefix.lean ====
/-
  What the kernel is handed: the two zero-one matrices and the merged coordinate array.

  Before the kernel runs, the coordinate array is re-laid with each node's three coordinates side by side (75
  merged positions per frame), and the grouping matrix is computed from position numbers alone: entry `(f, n)` is
  the test `⌊f / 3⌋ = n` turned into a real number, `f` running down the 75 positions and `n` across the 25
  nodes; the second matrix is its transpose. Read at an entry, each is one if position `f` belongs to node `n`
  and zero otherwise.
-/
import proofs.«153078_j61151744360729_2_alg».proof.Proof.Gen.KernelIdeal.Frame
import proofs.«153078_j61151744360729_2_alg».proof.Proof.Words
import Idealize.ShloMosaic.Lib.Pipeline.Value
import Idealize.ShloMosaic.Lib.StableHlo.Run

noncomputable section

open Idealize.ShloMosaic Idealize.ShloMosaic.ValueIdx Idealize.ShloMosaic.TcCoe Idealize.SL.Sem Idealize.ShloMosaic.StableHlo

namespace FrameDistance.HostPrefix

open Cert.KernelIdeal Cert.KernelIdeal.Gen

/-! ## Small broadcasts read at an entry -/

section Broadcasts
variable {α : Type}

/-- A column repeated along 25 columns reads the column's entry of the same row. -/
theorem cols_apply (h : S75x1.BroadcastsInDim S75x25 (![0, 1] : Fin 2 → Fin S75x25.rank)) (x : S75x1.Idx → α)
    (f : Fin 75) (n : Fin 25) : broadcastInDim S75x25 ![0, 1] h x (ix2 f n) = x (ix2 f (0 : Fin 1)) :=
  broadcastInDim_apply _ h x (ix2 f n) (ix2 f (0 : Fin 1)) (fun a => by
    match a with
    | ⟨0, _⟩ => show f.val = if (75 : ℕ) = 1 then 0 else f.val; rw [if_neg (by decide)]
    | ⟨1, _⟩ => show 0 = if (1 : ℕ) = 1 then 0 else n.val; rw [if_pos rfl])

/-- A row repeated down 75 rows reads the row's entry of the same column. -/
theorem rows_apply (h : S1x25.BroadcastsInDim S75x25 (![0, 1] : Fin 2 → Fin S75x25.rank)) (x : S1x25.Idx → α)
    (f : Fin 75) (n : Fin 25) : broadcastInDim S75x25 ![0, 1] h x (ix2 f n) = x (ix2 (0 : Fin 1) n) :=
  broadcastInDim_apply _ h x (ix2 f n) (ix2 (0 : Fin 1) n) (fun a => by
    match a with
    | ⟨0, _⟩ => show 0 = if (1 : ℕ) = 1 then 0 else f.val; rw [if_pos rfl]
    | ⟨1, _⟩ => show n.val = if (25 : ℕ) = 1 then 0 else n.val; rw [if_neg (by decide)])

/-- A vector of 25 entries laid out as one row. -/
theorem row_apply (h : S25.BroadcastsInDim S1x25 (![1] : Fin 1 → Fin S1x25.rank)) (x : S25.Idx → α) (n : Fin 25) :
    broadcastInDim S1x25 ![1] h x (ix2 (0 : Fin 1) n) = x (ix1 n) :=
  broadcastInDim_apply _ h x (ix2 (0 : Fin 1) n) (ix1 n) (fun a => by
    match a with
    | ⟨0, _⟩ => show n.val = if (25 : ℕ) = 1 then 0 else n.val; rw [if_neg (by decide)])

/-- A vector of 75 entries laid out as one column. -/
theorem col_apply (h : S75.BroadcastsInDim S75x1 (![0] : Fin 1 → Fin S75x1.rank)) (x : S75.Idx → α) (f : Fin 75) :
    broadcastInDim S75x1 ![0] h x (ix2 f (0 : Fin 1)) = x (ix1 f) :=
  broadcastInDim_apply _ h x (ix2 f (0 : Fin 1)) (ix1 f) (fun a => by
    match a with
    | ⟨0, _⟩ => show f.val = if (75 : ℕ) = 1 then 0 else f.val; rw [if_neg (by decide)])

end Broadcasts

theorem uitofp_apply {s : Shape} {w : ℕ} (x : IVec s w) (i : s.Idx) :
    (uitofp (F := Ideal) .f32 x) i = FloatOps.uitofp (F := Ideal) .f32 (x i) := rfl

theorem cmpi_apply {s : Shape} {w : ℕ} (p : CmpIPredicate) (x y : IVec s w) (i : s.Idx) :
    cmpi p x y i = IntOp.cmpi p (x i) (y i) := rfl

/-- The floor division by three as the program spells it on a column of words, at one entry. -/
theorem floorDiv_col (A three sthree zero one : IVec S75x1 32) (i : S75x1.Idx) (a : BitVec 32)
    (hA : A i = a) (h3 : three i = 3#32) (hs : sthree i = sgn 3#32) (h0 : zero i = 0#32) (h1 : one i = 1#32) :
    select (andi (cmpi .ne (signi A) sthree) (cmpi .ne (Host.remsi A three) zero))
      (subi (Host.divsi A three) one) (Host.divsi A three) i = floorDiv3 a := by
  subst hA
  show Scalar.select (IntOp.andi (IntOp.cmpi .ne (signi A i) (sthree i)) (IntOp.cmpi .ne (IntOp.remsi .host (A i) (three i)) (zero i)))
    (IntOp.subi (IntOp.divsi .host (A i) (three i)) (one i)) (IntOp.divsi .host (A i) (three i)) = _
  rw [h3, hs, h0, h1]
  rfl

variable (m : (ℓ : Loc nD τ sig) → Buf (Elt Ideal) ℓ)

/-- THE GROUPING MATRIX as the kernel finds it: one where position `f` belongs to node `n`, zero elsewhere. -/
theorem grouping_apply (c : Dev nD) (f : Fin 75) (n : Fin 25) :
    (V m c main_v9 : S75x25.Idx → EReal) (ix2 f n) = if f.val / 3 = n.val then (1 : EReal) else 0 := by
  dsimp only [V, V0]
  simp only [hostOps0, hostOps0_1, hostOps0_2, List.flatten_cons, List.flatten_nil, List.append_nil, List.cons_append,
    List.nil_append]
  after_results
  simp only [cast_eq]
  rw [uitofp_apply, cmpi_apply, cols_apply, rows_apply, row_apply]
  refine Eq.trans (congrArg (fun a => FloatOps.uitofp (F := Ideal) .f32 (IntOp.cmpi .eq a (BitVec.ofNat 32 n.val))) ?_)
    (indicator_group f n)
  exact floorDiv_col _ _ _ _ _ _ _ (by rw [col_apply]; rfl) rfl rfl rfl rfl

/-- THE SECOND MATRIX is the grouping matrix transposed: entry `(n, f)` is one where position `f` belongs to
    node `n`. -/
theorem grouping_t_apply (c : Dev nD) (n : Fin 25) (f : Fin 75) :
    (V m c main_v10 : S25x75.Idx → EReal) (ix2 n f) = if f.val / 3 = n.val then (1 : EReal) else 0 := by
  dsimp only [V, V0]
  simp only [hostOps0, hostOps0_1, hostOps0_2, List.flatten_cons, List.flatten_nil, List.append_nil, List.cons_append,
    List.nil_append]
  after_results
  simp only [cast_eq]
  rw [transpose_apply _ _ _ (ix2 n f) (ix2 f n) (fun b => by
    match b with
    | ⟨0, _⟩ => rfl
    | ⟨1, _⟩ => rfl)]
  rw [uitofp_apply, cmpi_apply, cols_apply, rows_apply, row_apply]
  refine Eq.trans (congrArg (fun a => FloatOps.uitofp (F := Ideal) .f32 (IntOp.cmpi .eq a (BitVec.ofNat 32 n.val))) ?_)
    (indicator_group f n)
  exact floorDiv_col _ _ _ _ _ _ _ (by rw [col_apply]; rfl) rfl rfl rfl rfl

/-- THE ARRAY THE KERNEL READS is the coordinate array with each node's three coordinates side by side. -/
theorem merged_arg (c : Dev nD) :
    (V m c main_v0 : S512x1024x75.Idx → EReal)
      = shapeCast S512x1024x75 (m ((c : Thread nD τ).loc main_arg0)) shapeCasts_S512x1024x25x3_S512x1024x75 := by
  dsimp only [V, V0]
  simp only [hostOps0, hostOps0_1, hostOps0_2, List.flatten_cons, List.flatten_nil, List.append_nil, List.cons_append,
    List.nil_append]
  after_results
  rfl

end FrameDistance.HostPrefix

end
-- ==== Proof.Blocks.lean ====
/-
  From the kernel's blocks to the whole result.

  The grid has 64 points; point `t` reads sequences `8 t … 8 t + 7` of the merged array (all frames, all 75
  positions) together with the two whole matrices, and writes back the same sequences of the output. What a
  point writes is the body's value on its block, and a block entry `(b, s, f)` is array entry `(8 t + b, s, f)`;
  the next frame of a sequence lies in the same block, so the body's value at a block entry is the merged
  result's value at the array entry. The 64 blocks tile the output array, which therefore ends holding the merged
  result; the last host step lays it out again as nodes of three coordinates.
-/
import proofs.«153078_j61151744360729_2_alg».proof.Proof.Gen.KernelIdeal.Frame
import proofs.«153078_j61151744360729_2_alg».proof.Proof.Body
import proofs.«153078_j61151744360729_2_alg».proof.Proof.HostPrefix
import Idealize.ShloMosaic.Lib.Pipeline.Value
import Idealize.ShloMosaic.Lib.StableHlo.Run

set_option maxRecDepth 16384

noncomputable section

open scoped BigOperators
open Idealize.ShloMosaic Idealize.ShloMosaic.ValueIdx Idealize.ShloMosaic.TcCoe Idealize.SL.Sem
open Idealize.ShloMosaic.Pipeline (Dat)

namespace FrameDistance.Blocks

open Cert.KernelIdeal Cert.KernelIdeal.Gen FrameDistance.Body FrameDistance.HostPrefix

variable (m : (ℓ : Loc nD τ sig) → Buf (Elt Ideal) ℓ) (ρ : Dev nD → PrngReg)

/-- What the output array ends holding: the result in the merged layout. -/
def mergedResult (c : Dev nD) : S512x1024x75.Idx → EReal :=
  shapeCast S512x1024x75 (out (m ((c : Thread nD τ).loc main_arg0))) shapeCasts_S512x1024x25x3_S512x1024x75

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the array and the output move one block of sequences per
    point, the two matrices stay whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The sequence of the array that sequence `b` of point `t`'s block is. -/
def seqOf (t : Fin cfg0.N) (b : Fin 8) : Fin 512 :=
  ⟨8 * t.val + b.val, by have ht : t.val < 64 := lt_of_lt_of_eq t.isLt N_0; have := b.isLt; omega⟩

/-- Entry `(b, s, f)` of the input block at point `t` is array entry `(8 t + b, s, f)`. -/
theorem emb_in (t : Fin cfg0.N) (b : Fin 8) (s : Fin 1024) (f : Fin 75) :
    ((cfg0.win 0).blk t).view.emb (ix3 b s f) = ix3 (seqOf t b) s f := by
  obtain ⟨e0, e1, e2, -⟩ := idx_facts t
  funext a; apply Fin.ext
  match a with
  | ⟨0, _⟩ => show win0_0.index t (0 : Fin 3) * 8 + 1 * b.val = 8 * t.val + b.val; omega
  | ⟨1, _⟩ => show win0_0.index t (1 : Fin 3) * 1024 + 1 * s.val = s.val; omega
  | ⟨2, _⟩ => show win0_0.index t (2 : Fin 3) * 75 + 1 * f.val = f.val; omega

/-- The same for the output block. -/
theorem emb_out (t : Fin cfg0.N) (b : Fin 8) (s : Fin 1024) (f : Fin 75) :
    ((cfg0.win 3).blk t).view.emb (ix3 b s f) = ix3 (seqOf t b) s f := by
  obtain ⟨-, -, -, -, -, -, -, e0, e1, e2⟩ := idx_facts t
  funext a; apply Fin.ext
  match a with
  | ⟨0, _⟩ => show win0_3.index t (0 : Fin 3) * 8 + 1 * b.val = 8 * t.val + b.val; omega
  | ⟨1, _⟩ => show win0_3.index t (1 : Fin 3) * 1024 + 1 * s.val = s.val; omega
  | ⟨2, _⟩ => show win0_3.index t (2 : Fin 3) * 75 + 1 * f.val = f.val; omega

/-- The grouping matrix's block is the whole matrix. -/
theorem emb_g (t : Fin cfg0.N) (f : Fin 75) (n : Fin 25) :
    ((cfg0.win 1).blk t).view.emb (ix2 f n) = ix2 f n := by
  obtain ⟨-, -, -, e0, e1, -⟩ := idx_facts t
  funext a; apply Fin.ext
  match a with
  | ⟨0, _⟩ => show win0_1.index t (0 : Fin 2) * 75 + 1 * f.val = f.val; omega
  | ⟨1, _⟩ => show win0_1.index t (1 : Fin 2) * 25 + 1 * n.val = n.val; omega

/-- And so is its transpose's. -/
theorem emb_gt (t : Fin cfg0.N) (n : Fin 25) (f : Fin 75) :
    ((cfg0.win 2).blk t).view.emb (ix2 n f) = ix2 n f := by
  obtain ⟨-, -, -, -, -, e0, e1, -⟩ := idx_facts t
  funext a; apply Fin.ext
  match a with
  | ⟨0, _⟩ => show win0_2.index t (0 : Fin 2) * 25 + 1 * n.val = n.val; omega
  | ⟨1, _⟩ => show win0_2.index t (1 : Fin 2) * 75 + 1 * f.val = f.val; omega

/-- The input block at a point, read at an entry, is the merged coordinate array there. -/
theorem block_in (c : Dev nD) (t : Fin cfg0.N) (b : Fin 8) (s : Fin 1024) (f : Fin 75) :
    iblk m c 0 t (ix3 b s f)
      = shapeCast S512x1024x75 (m ((c : Thread nD τ).loc main_arg0)) shapeCasts_S512x1024x25x3_S512x1024x75 (ix3 (seqOf t b) s f) := by
  show V m c main_v0 (((cfg0.win 0).blk t).view.emb (ix3 b s f)) = _
  rw [emb_in, merged_arg]

theorem block_g (c : Dev nD) (t : Fin cfg0.N) (f : Fin 75) (n : Fin 25) :
    iblk m c 1 t (ix2 f n) = if f.val / 3 = n.val then (1 : EReal) else 0 := by
  show V m c main_v9 (((cfg0.win 1).blk t).view.emb (ix2 f n)) = _
  rw [emb_g]
  exact grouping_apply m c f n

theorem block_gt (c : Dev nD) (t : Fin cfg0.N) (n : Fin 25) (f : Fin 75) :
    iblk m c 2 t (ix2 n f) = if f.val / 3 = n.val then (1 : EReal) else 0 := by
  show V m c main_v10 (((cfg0.win 2).blk t).view.emb (ix2 n f)) = _
  rw [emb_gt]
  exact grouping_t_apply m c n f

/-- WHAT POINT `t` WRITES BACK is block `t` of the merged result. -/
theorem flushed_eq (c : Dev nD) (t : Fin cfg0.N) :
    (dats m 0 c).flushed 3 t = ((cfg0.win 3).blk t).view.read (Elt Ideal) (mergedResult m c) := by
  show (cfg0.win 3).cut (grid0.coords t) ((dats m 0 c).after 3 t) = _
  rw [after0_3]
  unfold out0_3
  rw [View.canon_unit_zero hz3]
  simp only [View.ld_unit_zero (S := S8x1024x75) hz3, View.ld_unit_zero (S := S75x25) hz2, View.ld_unit_zero (S := S25x75) hz2]
  funext y
  obtain ⟨b, s, f, rfl⟩ : ∃ (b : Fin 8) (s : Fin 1024) (f : Fin 75), y = ix3 b s f := ⟨y 0, y 1, y 2, eq_ix3 y⟩
  show k0_pay1 (F := Ideal) (iblk m c 0 t) (iblk m c 1 t) (iblk m c 2 t) (ix3 b s f)
    = mergedResult m c (((cfg0.win 3).blk t).view.emb (ix3 b s f))
  refine (payload_apply (iblk m c 0 t) (iblk m c 1 t) (iblk m c 2 t) (block_g m c t) (block_gt m c t) b s f).trans ?_
  rw [emb_out]
  unfold mergedResult
  rw [merged_out]
  unfold blockDist blockSq
  simp only [block_in m c t b]

/-- An index of the output array is in point `t`'s block iff each coordinate is in the block's range. -/
theorem mem_blk (t : Fin cfg0.N) (i : S512x1024x75.Idx) :
    i ∈ ((cfg0.win 3).blk t).view.set ↔ ∀ a : Fin 3, win0_3.index t a * S8x1024x75.size a ≤ (i a).val
      ∧ (i a).val < win0_3.index t a * S8x1024x75.size a + S8x1024x75.size a := by
  show i ∈ ((View.whole main_v11).slice (win0_3.rect t)).set ↔ _
  rw [View.set_slice_whole, Rect.mem_set_unit]
  exact Iff.rfl

/-- The blocks tile the output array: sequence `B` lies in the block of point `⌊B / 8⌋`. -/
theorem cover (i : S512x1024x75.Idx) :
    ∃ t : Fin cfg0.N, (cfg0.win 3).flush t = true ∧ i ∈ ((cfg0.win 3).blk t).view.set := by
  have hi0 : (i 0).val < 512 := (i 0).isLt
  have hi1 : (i 1).val < 1024 := (i 1).isLt
  have hi2 : (i 2).val < 75 := (i 2).isLt
  obtain ⟨t, ht⟩ : ∃ t : Fin cfg0.N, t.val = (i 0).val / 8 :=
    ⟨⟨(i 0).val / 8, lt_of_lt_of_eq (by omega : (i 0).val / 8 < 64) N_0.symm⟩, rfl⟩
  refine ⟨t, flush0_3 t, ?_⟩
  rw [mem_blk]
  obtain ⟨-, -, -, -, -, -, -, e0, e1, e2⟩ := idx_facts t
  intro a
  match a with
  | ⟨0, _⟩ =>
    show win0_3.index t (0 : Fin 3) * 8 ≤ (i 0).val ∧ (i 0).val < win0_3.index t (0 : Fin 3) * 8 + 8
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 75 ≤ (i 2).val ∧ (i 2).val < win0_3.index t (2 : Fin 3) * 75 + 75
    omega

/-- THE OUTPUT ARRAY after the run is the merged result. -/
theorem final (c : Dev nD) : (dats m 0 c).arrAt 3 cfg0.N = mergedResult m c :=
  (dats m 0 c).arrAt_eq_of_cover 3 (mergedResult m c) (fun t _ => flushed_eq m c t) cover

/-- The last host step lays the output array out again as nodes of three coordinates: the result. -/
theorem tail (c : Dev nD) :
    Pipeline.afterTail₀ cfgs (dats m) 0 (V0 m) [hostOps1] c main_v12 = out (m ((c : Thread nD τ).loc main_arg0)) := by
  unfold Pipeline.afterTail₀
  show StableHlo.after hostOps1 _ (Proc.devRef .tc main_v12) = _
  after_results
  have hw : Pipeline.withArrays (cfgs 0).spec c (V0 m c) (fun w => (dats m 0 c).arrAt w (cfgs 0).N)
      (Proc.devRef .tc main_v11) = (dats m 0 c).arrAt 3 cfg0.N :=
    Pipeline.withArrays_arr spec0 launch0.win.arr_inj c _ _ 3
  rw [hw, final]
  exact unmerged _ _ _

/-- THE KERNEL'S RUN: every weakly fair execution ends with the result array at the frame-to-frame distance result
    of the coordinate array, which is unchanged. -/
theorem run : θ_run defs (onTc (τ := τ) (main (F := Ideal))) ⟨m, fun _ => 0, ρ⟩ fun r => ∀ c : Dev nD,
      r.2.mem ((c : Thread nD τ).loc main_v12) = out (m ((c : Thread nD τ).loc main_arg0))
      ∧ r.2.mem ((c : Thread nD τ).loc main_arg0) = m ((c : Thread nD τ).loc main_arg0) :=
  (θ_run defs _ _).mono (fun r h c =>
      ⟨((h c).2 main_v12 (Pipeline.mem_restRefs_of main_v12 (by decide) (by decide))).trans (tail m c),
       ((h c).2 main_arg0 (Pipeline.mem_restRefs_of main_arg0 (by decide) (by decide))).trans (W_main_arg0 m (dats m) c)⟩)
    (run_main m ρ)

end FrameDistance.Blocks

end
-- ==== Proof.lean ====
/-
  The kernel adds to every coordinate of a skeleton sequence the distance its node moves to the next frame, and
  so does the reference.

  Both programs take the array `x` of 512 sequences of 1024 frames of 25 nodes with 3 coordinates. Over the
  extended reals the reference computes, entry by entry, `x + d` where `d (b, s, n)` is the square root of the
  summed squared coordinate differences of node `n` between frames `s + 1` and `s`, and zero at the last
  frame (Proof/FrameDistance.lean states it, Proof/Reference.lean reads the reference as that function).

  The kernel works on the array with each node's coordinates side by side (75 positions per frame), eight
  sequences per grid point: it rolls the frames by one place to get the next frame, squares the difference, adds
  up each node's three squares by a product with a zero-one grouping matrix, clamps at zero (a sum of squares is
  never negative, so nothing changes), takes the square root, masks the last frame to zero, spreads a node's
  distance over its three positions by a product with the transposed matrix, and adds. A product with a zero-one
  matrix selects entries exactly, for every extended real, so no finiteness is needed (Proof/Body.lean). The
  matrices are what the host computes from position numbers (Proof/HostPrefix.lean), the 64 blocks tile the
  output, and the final re-layout gives back the four-axis result (Proof/Blocks.lean).

  The frames of the two kernel programs are the generated ones; the reference's frame is its generated run with
  the result dropped; the idealization rewrote nothing, so there is nothing to preserve.
-/
import proofs.«153078_j61151744360729_2_alg».proof.Defs
import proofs.«153078_j61151744360729_2_alg».proof.Proof.Gen.Kernel
import proofs.«153078_j61151744360729_2_alg».proof.Proof.Gen.Kernel.Skeleton
import proofs.«153078_j61151744360729_2_alg».proof.Proof.Gen.Kernel.Launch
import proofs.«153078_j61151744360729_2_alg».proof.Proof.Gen.Kernel.Points
import proofs.«153078_j61151744360729_2_alg».proof.Proof.Gen.Kernel.Frame
import proofs.«153078_j61151744360729_2_alg».proof.Proof.Gen.KernelIdeal
import proofs.«153078_j61151744360729_2_alg».proof.Proof.Gen.KernelIdeal.Skeleton
import proofs.«153078_j61151744360729_2_alg».proof.Proof.Gen.KernelIdeal.Launch
import proofs.«153078_j61151744360729_2_alg».proof.Proof.Gen.KernelIdeal.Points
import proofs.«153078_j61151744360729_2_alg».proof.Proof.Gen.KernelIdeal.Frame
import proofs.«153078_j61151744360729_2_alg».proof.Proof.Gen.ReferenceIdeal
import proofs.«153078_j61151744360729_2_alg».proof.Proof.Gen.ReferenceIdeal.Run
import proofs.«153078_j61151744360729_2_alg».proof.Proof.Gen.ReferenceIdeal.Read
import proofs.«153078_j61151744360729_2_alg».proof.Proof.Gen.Pre_finite_inputs
import proofs.«153078_j61151744360729_2_alg».proof.Proof.Reference
import proofs.«153078_j61151744360729_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the frame-to-frame distance result of the one coordinate array. -/
theorem algebraic : Cert.algebraic_KernelIdeal_ReferenceIdeal := by
  intro m ρ m' ρ' _ hagree
  refine ⟨fun c => FrameDistance.out (m ((c : Thread Cert.KernelIdeal.nD Cert.KernelIdeal.τ).loc Cert.KernelIdeal.main_arg0)),
    FrameDistance.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, FrameDistance.Reference.result, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
